-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x16384 : Shape := ⟨3, ![8, 64, 16384]⟩
abbrev S64x80 : Shape := ⟨2, ![64, 80]⟩
abbrev S_ : Shape := ⟨0, ![]⟩

class Facts : Prop where
  bcast_S_S8x64x16384 : S_.BroadcastsInDim S8x64x16384 (![] : Fin 0 → Fin S8x64x16384.rank)
  reducesTo_S8x64x16384_S_d0_1_2 : S8x64x16384.ReducesTo [0, 1, 2] S_
  h_S_ : 0 < S_.numel
  bcast_S_S64x80 : S_.BroadcastsInDim S64x80 (![] : Fin 0 → Fin S64x80.rank)
  reducesTo_S64x80_S_d0_1 : S64x80.ReducesTo [0, 1] S_

variable [Facts]

def fn {F : FTy → Type} [FloatOps F] (main_arg0 : FVec F S8x64x16384 .f32) (main_arg1 : FVec F S64x80 .f32) (main_arg2 : FVec F S64x80 .f32) : IVec S_ 1 :=
  let main_v0 : FVec F S8x64x16384 .f32 := Host.absf main_arg0
  let main_cst : FVec F S_ .f32 := constant S_ .f32 0x7F800000#32
  let main_v1 : FVec F S8x64x16384 .f32 := broadcastInDim S8x64x16384 ![] bcast_S_S8x64x16384 main_cst
  let main_v2 : IVec S8x64x16384 1 := cmpf .olt main_v0 main_v1
  let main_c : IVec S_ 1 := constantI S_ 1 1#1
  let main_v3 : IVec S_ 1 := (fun x v => Host.reduce IntOp.andi x v reducesTo_S8x64x16384_S_d0_1_2 h_S_) main_v2 main_c
  let main_v4 : FVec F S64x80 .f32 := Host.absf main_arg1
  let main_cst_0 : FVec F S_ .f32 := constant S_ .f32 0x7F800000#32
  let main_v5 : FVec F S64x80 .f32 := broadcastInDim S64x80 ![] bcast_S_S64x80 main_cst_0
  let main_v6 : IVec S64x80 1 := cmpf .olt main_v4 main_v5
  let main_c_1 : IVec S_ 1 := constantI S_ 1 1#1
  let main_v7 : IVec S_ 1 := (fun x v => Host.reduce IntOp.andi x v reducesTo_S64x80_S_d0_1 h_S_) main_v6 main_c_1
  let main_v8 : IVec S_ 1 := andi main_v3 main_v7
  let main_v9 : FVec F S64x80 .f32 := Host.absf main_arg2
  let main_cst_2 : FVec F S_ .f32 := constant S_ .f32 0x7F800000#32
  let main_v10 : FVec F S64x80 .f32 := broadcastInDim S64x80 ![] bcast_S_S64x80 main_cst_2
  let main_v11 : IVec S64x80 1 := cmpf .olt main_v9 main_v10
  let main_c_3 : IVec S_ 1 := constantI S_ 1 1#1
  let main_v12 : IVec S_ 1 := (fun x v => Host.reduce IntOp.andi x v reducesTo_S64x80_S_d0_1 h_S_) main_v11 main_c_3
  let main_v13 : IVec S_ 1 := andi main_v8 main_v12
  main_v13
-- ==== Kernel.lean ====
abbrev S8x64x16384 : Shape := ⟨3, ![8, 64, 16384]⟩
abbrev S64x80 : Shape := ⟨2, ![64, 80]⟩
abbrev S8x80x16384 : Shape := ⟨3, ![8, 80, 16384]⟩
abbrev S1x64x16384 : Shape := ⟨3, ![1, 64, 16384]⟩
abbrev S1x80x16384 : Shape := ⟨3, ![1, 80, 16384]⟩
abbrev S64x16384 : Shape := ⟨2, ![64, 16384]⟩
abbrev S80 : Shape := ⟨1, ![80]⟩
abbrev S80x16384 : Shape := ⟨2, ![80, 16384]⟩
abbrev S80x1 : Shape := ⟨2, ![80, 1]⟩

abbrev nBuf : Space → Nat
  | .hbm => 4
  | .vmem => 6
  | .smem => 0
  | _ => 0

abbrev bufTy : (tb : Table) → Fin (tcTables nBuf tb) → BufTy
  | .hbm, ⟨0, _⟩ => ⟨S8x64x16384, .f32⟩
  | .hbm, ⟨1, _⟩ => ⟨S64x80, .f32⟩
  | .hbm, ⟨2, _⟩ => ⟨S64x80, .f32⟩
  | .hbm, ⟨3, _⟩ => ⟨S8x80x16384, .f32⟩
  | .local _ .vmem, ⟨0, _⟩ => ⟨S1x64x16384, .f32⟩
  | .local _ .vmem, ⟨1, _⟩ => ⟨S1x64x16384, .f32⟩
  | .local _ .vmem, ⟨2, _⟩ => ⟨S64x80, .f32⟩
  | .local _ .vmem, ⟨3, _⟩ => ⟨S64x80, .f32⟩
  | .local _ .vmem, ⟨4, _⟩ => ⟨S1x80x16384, .f32⟩
  | .local _ .vmem, ⟨5, _⟩ => ⟨S1x80x16384, .f32⟩
  | _, _ => ⟨S8x64x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x80x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x64x16384_S1x64x16384_0_0_0 : ∀ a, (![0, 0, 0] : Fin 3 → Nat) a + S1x64x16384.size a ≤ S1x64x16384.size a
  h_S1x64x16384 : 0 < S1x64x16384.numel
  shapeCasts_S1x64x16384_S64x16384 : S1x64x16384.ShapeCasts S64x16384
  inb_S64x80_S64x80_0_0 : ∀ a, (![0, 0] : Fin 2 → Nat) a + S64x80.size a ≤ S64x80.size a
  h_S64x80 : 0 < S64x80.numel
  reduces_S64x80_S80 : S64x80.Reduces [0] S80
  shapeCasts_S80_S80x1 : S80.ShapeCasts S80x1
  broadcasts_S80x1_S80x16384 : S80x1.Broadcasts S80x16384
  inb_S1x80x16384_S1x80x16384_0_0_0 : ∀ a, (![0, 0, 0] : Fin 3 → Nat) a + S1x80x16384.size a ≤ S1x80x16384.size a
  h_S1x80x16384 : 0 < S1x80x16384.numel
  shapeCasts_S1x80x16384_S80x16384 : S1x80x16384.ShapeCasts S80x16384
  shapeCasts_S80x16384_S1x80x16384 : S80x16384.ShapeCasts S1x80x16384
  dot_S64x80_S64x16384_S80x16384_0_0_1_1_n_n_wf : DotDims.WF S64x80 S64x16384 S80x16384 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x16384.size a ≤ S8x64x16384.size a
  hwx0_0 : ∀ i : grid0.Coords, EltTy.bits .f32 = 32 ∨ (Rect.block (s := S8x64x16384) S1x64x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x80.size a ≤ S64x80.size a
  hwx0_1 : ∀ i : grid0.Coords, EltTy.bits .f32 = 32 ∨ (Rect.block (s := S64x80) S64x80.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x80.size a ≤ S64x80.size a
  hwx0_2 : ∀ i : grid0.Coords, EltTy.bits .f32 = 32 ∨ (Rect.block (s := S64x80) S64x80.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x80x16384.size a ≤ S8x80x16384.size a
  hwx0_3 : ∀ i : grid0.Coords, EltTy.bits .f32 = 32 ∨ (Rect.block (s := S8x80x16384) S1x80x16384.size (cc0_transform_3 i) (hinb0_3 i)).WholeWords (EltTy.packing .f32)

variable [Facts₀]

def dot_S64x80_S64x16384_S80x16384_0_0_1_1_n_n : DotDims S64x80 S64x16384 S80x16384 where
  lhsContracting := [0]
  rhsContracting := [0]
  lhsNonContracting := [1]
  rhsNonContracting := [1]
  lhsBatch := []
  rhsBatch := []
  wf := dot_S64x80_S64x16384_S80x16384_0_0_1_1_n_n_wf

abbrev win0_0 : Pipeline.Window sig grid0 :=
  Pipeline.Window.ofSpec (Memref.whole main_arg0) S1x64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x80.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x80.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x80x16384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x64x16384 : Shape := ⟨3, ![8, 64, 16384]⟩
abbrev S64x80 : Shape := ⟨2, ![64, 80]⟩
abbrev S8x16384x64 : Shape := ⟨3, ![8, 16384, 64]⟩
abbrev S131072x64 : Shape := ⟨2, ![131072, 64]⟩
abbrev S_ : Shape := ⟨0, ![]⟩
abbrev S80 : Shape := ⟨1, ![80]⟩
abbrev S131072x80 : Shape := ⟨2, ![131072, 80]⟩
abbrev S1x80 : Shape := ⟨2, ![1, 80]⟩
abbrev S8x16384x80 : Shape := ⟨3, ![8, 16384, 80]⟩
abbrev S8x80x16384 : Shape := ⟨3, ![8, 80, 16384]⟩

abbrev nBuf : Space → Nat
  | .hbm => 27
  | .vmem => 0
  | .smem => 0
  | _ => 0

abbrev bufTy : (tb : Table) → Fin (tcTables nBuf tb) → BufTy
  | .hbm, ⟨0, _⟩ => ⟨S8x64x16384, .f32⟩
  | .hbm, ⟨1, _⟩ => ⟨S64x80, .f32⟩
  | .hbm, ⟨2, _⟩ => ⟨S64x80, .f32⟩
  | .hbm, ⟨3, _⟩ => ⟨S8x16384x64, .f32⟩
  | .hbm, ⟨4, _⟩ => ⟨S131072x64, .f32⟩
  | .hbm, ⟨5, _⟩ => ⟨S64x80, .f32⟩
  | .hbm, ⟨6, _⟩ => ⟨S64x80, .f32⟩
  | .hbm, ⟨7, _⟩ => ⟨S_, .f32⟩
  | .hbm, ⟨8, _⟩ => ⟨S80, .f32⟩
  | .hbm, ⟨9, _⟩ => ⟨S131072x64, .f32⟩
  | .hbm, ⟨10, _⟩ => ⟨S131072x80, .f32⟩
  | .hbm, ⟨11, _⟩ => ⟨S64x80, .f32⟩
  | .hbm, ⟨12, _⟩ => ⟨S131072x80, .f32⟩
  | .hbm, ⟨13, _⟩ => ⟨S_, .f32⟩
  | .hbm, ⟨14, _⟩ => ⟨S131072x80, .f32⟩
  | .hbm, ⟨15, _⟩ => ⟨S131072x80, .f32⟩
  | .hbm, ⟨16, _⟩ => ⟨S131072x80, .f32⟩
  | .hbm, ⟨17, _⟩ => ⟨S1x80, .f32⟩
  | .hbm, ⟨18, _⟩ => ⟨S131072x80, .f32⟩
  | .hbm, ⟨19, _⟩ => ⟨S131072x80, .f32⟩
  | .hbm, ⟨20, _⟩ => ⟨S131072x80, .f32⟩
  | .hbm, ⟨21, _⟩ => ⟨S131072x80, .f32⟩
  | .hbm, ⟨22, _⟩ => ⟨S_, .f32⟩
  | .hbm, ⟨23, _⟩ => ⟨S131072x80, .f32⟩
  | .hbm, ⟨24, _⟩ => ⟨S131072x80, .f32⟩
  | .hbm, ⟨25, _⟩ => ⟨S8x16384x80, .f32⟩
  | .hbm, ⟨26, _⟩ => ⟨S8x80x16384, .f32⟩
  | _, _ => ⟨S8x64x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  transposes_S8x64x16384_S8x16384x64_0_2_1 : S8x64x16384.Transposes [0, 2, 1] S8x16384x64
  shapeCasts_S8x16384x64_S131072x64 : S8x16384x64.ShapeCasts S131072x64
  reducesTo_S64x80_S80_d0 : S64x80.ReducesTo [0] S80
  h_S_ : 0 < S_.numel
  bcast_S_S131072x80 : S_.BroadcastsInDim S131072x80 (![] : Fin 0 → Fin S131072x80.rank)
  bcast_S80_S1x80_1 : S80.BroadcastsInDim S1x80 (![1] : Fin 1 → Fin S1x80.rank)
  bcast_S1x80_S131072x80_0_1 : S1x80.BroadcastsInDim S131072x80 (![0, 1] : Fin 2 → Fin S131072x80.rank)
  shapeCasts_S131072x80_S8x16384x80 : S131072x80.ShapeCasts S8x16384x80
  transposes_S8x16384x80_S8x80x16384_0_2_1 : S8x16384x80.Transposes [0, 2, 1] S8x80x16384
  dot_S131072x64_S64x80_S131072x80_1_0_0_1_n_n_wf : DotDims.WF S131072x64 S64x80 S131072x80 [1] [0] [0] [1] [] []

variable [Facts₀]

def dot_S131072x64_S64x80_S131072x80_1_0_0_1_n_n : DotDims S131072x64 S64x80 S131072x80 where
  lhsContracting := [1]
  rhsContracting := [0]
  lhsNonContracting := [0]
  rhsNonContracting := [1]
  lhsBatch := []
  rhsBatch := []
  wf := dot_S131072x64_S64x80_S131072x80_1_0_0_1_n_n_wf

class Facts : Prop extends Facts₀ where

variable [Facts]
-- ==== Proof.Cell.lean ====
/-
  The membership of one pixel in one fuzzy class, and the whole output array.

  A pixel carries a feature column `X : Fin 64 → EReal`; a class carries a centre column `C` and a weight column `L`
  of the same length. The weighted squared distance `∑ₖ Lₖ (Xₖ − Cₖ)²` is taken in its expanded form
      dist = (∑ₖ Lₖ·Xₖ²  −  2·∑ₖ (Lₖ·Cₖ)·Xₖ)  +  ∑ₖ (Lₖ·Cₖ)·Cₖ ,
  and the membership is `max (exp (−dist)) ε` with `ε` the single-precision word nearest `10⁻⁶`. The two float
  literals (the factor `2` and the floor `ε`) are kept as the words the programs carry: both programs carry the same
  words, so they are never evaluated.

  `cell` is that value. Two programs compute it in two arrangements, and the laws below say each arrangement is
  `cell`: one writes the sign change as `0 − dist`; the other multiplies the factors of each dot product in the
  opposite order and starts the centre sum from a zero initial value. Only `0 − a = −a`, `0 + a = a` and the
  commutativity of the product are used, and these hold at the infinities too, so no finiteness is assumed.

  `membership x cc lam` is the output array: at `(n, c, t)` the pixel is column `x[n, ·, t]`, the class columns are
  `cc[·, c]` and `lam[·, c]`.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Membership

/-- The membership of a pixel with features `X` in the class with weights `L` and centre `C`. -/
def cell (X L C : Fin 64 → EReal) : EReal :=
  max (Ideal.exp (-(((∑ k : Fin 64, L k * (X k * X k)) - Ideal.ofBits .f32 0x40000000#32 * ∑ k : Fin 64, (L k * C k) * X k)
      + ∑ k : Fin 64, (L k * C k) * C k)))
    (Ideal.ofBits .f32 0x358637BD#32)

/-- The arrangement that changes the sign by subtracting from the zero word: `0 − a = −a` on every extended real. -/
theorem cell_of_zero_sub (X L C : Fin 64 → EReal) :
    max (Ideal.exp (Ideal.ofBits .f32 0x00000000#32
        - (((∑ k : Fin 64, L k * (X k * X k)) - Ideal.ofBits .f32 0x40000000#32 * ∑ k : Fin 64, (L k * C k) * X k)
          + ∑ k : Fin 64, (L k * C k) * C k)))
      (Ideal.ofBits .f32 0x358637BD#32) = cell X L C := by
  unfold cell
  rw [Ideal.ofBits_zero_f32, zero_sub]

/-- The arrangement with each dot product's factors in the other order (pixel first, class second) and the centre
    sum started from the zero word: the product commutes and `0 + a = a`. -/
theorem cell_of_swapped (X L C : Fin 64 → EReal) :
    max (Ideal.exp (-(((∑ k : Fin 64, (X k * X k) * L k) - Ideal.ofBits .f32 0x40000000#32 * ∑ k : Fin 64, X k * (L k * C k))
          + (Ideal.ofBits .f32 0x00000000#32 + ∑ k : Fin 64, (L k * C k) * C k))))
      (Ideal.ofBits .f32 0x358637BD#32) = cell X L C := by
  have h1 : (∑ k : Fin 64, (X k * X k) * L k) = ∑ k : Fin 64, L k * (X k * X k) :=
    Finset.sum_congr rfl fun k _ => mul_comm _ _
  have h2 : (∑ k : Fin 64, X k * (L k * C k)) = ∑ k : Fin 64, (L k * C k) * X k :=
    Finset.sum_congr rfl fun k _ => mul_comm _ _
  unfold cell
  rw [h1, h2, Ideal.ofBits_zero_f32, zero_add]

/-- The feature array `[8, 64, 16384]`: image, feature, pixel. -/
abbrev Feat : Shape := ⟨3, ![8, 64, 16384]⟩
/-- A class parameter array `[64, 80]`: feature, class. -/
abbrev Par : Shape := ⟨2, ![64, 80]⟩
/-- The membership array `[8, 80, 16384]`: image, class, pixel. -/
abbrev Memb : Shape := ⟨3, ![8, 80, 16384]⟩

/-- The membership of pixel `t` of image `n` in class `c`. -/
def membershipAt (x : Feat.Idx → EReal) (cc lam : Par.Idx → EReal) (n : Fin 8) (c : Fin 80) (t : Fin 16384) : EReal :=
  cell (fun k => x (ix3 n k t)) (fun k => lam (ix2 k c)) (fun k => cc (ix2 k c))

/-- The whole membership array. -/
def membership (x : Feat.Idx → EReal) (cc lam : Par.Idx → EReal) : Memb.Idx → EReal :=
  fun i => membershipAt x cc lam (i 0) (i 1) (i 2)

theorem membership_ix3 (x : Feat.Idx → EReal) (cc lam : Par.Idx → EReal) (n : Fin 8) (c : Fin 80) (t : Fin 16384) :
    membership x cc lam (ix3 n c t) = membershipAt x cc lam n c t := rfl

end Cert.Membership

end
-- ==== Proof.RefValue.lean ====
/-
  The reference program's result is the membership array.

  The reference flattens the features to a matrix with one row per (image, pixel) pair — row `n·16384 + t`, column the
  feature —, takes the two matrix products against the class parameters, the expanded distance, `exp` of its negation
  floored at `ε`, and lays the `[131072, 80]` result back out as `[8, 80, 16384]`. Read at the output index `(n, c, t)`:
  the row is `n·16384 + t` and the column `c` (`row_val`, `col_val`); feature `k` of that row is `x[n, k, t]`
  (`pixel_idx`); the parameter entries are at `(k, c)`. What remains is `Membership.cell` in the arrangement with the pixel
  factor first and the centre sum started from the zero word (`Membership.cell_of_swapped`).
-/
import proofs.«159845_j43525198577708_2_alg».proof.Proof.Gen.ReferenceIdeal.Read
import proofs.«159845_j43525198577708_2_alg».proof.Proof.Cell

noncomputable section

open scoped BigOperators
open Idealize.ShloMosaic Idealize.ShloMosaic.ValueIdx

namespace Cert.ReferenceIdeal.RefValue

open Cert.ReferenceIdeal Cert.ReferenceIdeal.Read Cert.Membership

/-- Output index `(n, c, t)` comes from row `n·16384 + t` of the flattened result … -/
theorem row_val (n : Fin 8) (c : Fin 80) (t : Fin 16384) :
    ((idx_main_v19 (idx_main_v20 (ix3 n c t))) 0).val = n.val * 16384 + t.val := by
  have hc : c.val < 80 := c.isLt
  show ((n.val * 16384 + t.val) * 80 + c.val) / 80 = _
  omega

/-- … and column `c`. -/
theorem col_val (n : Fin 8) (c : Fin 80) (t : Fin 16384) :
    ((idx_main_v19 (idx_main_v20 (ix3 n c t))) 1).val = c.val := by
  have hc : c.val < 80 := c.isLt
  show ((n.val * 16384 + t.val) * 80 + c.val) % 80 = _
  omega

/-- Feature `k` of row `n·16384 + t` of the flattened features is `x[n, k, t]` (first product's left operand). -/
theorem pixel_idx6 (j : S131072x80.Idx) (n : Fin 8) (t : Fin 16384) (h0 : (j 0).val = n.val * 16384 + t.val) (k : Fin 64) :
    idx_main_v0 (idx_main_v1 (lidx_main_v6 j k)) = ix3 n k t := by
  have hn : n.val < 8 := n.isLt
  have ht : t.val < 16384 := t.isLt
  have hk : k.val < 64 := k.isLt
  funext a; apply Fin.ext
  match a with
  | ⟨0, _⟩ => show ((j 0).val * 64 + k.val) / 1048576 = n.val; omega
  | ⟨1, _⟩ => show ((j 0).val * 64 + k.val) % 64 = k.val; omega
  | ⟨2, _⟩ => show ((j 0).val * 64 + k.val) / 64 % 16384 = t.val; omega

/-- The same for the second product's left operand. -/
theorem pixel_idx8 (j : S131072x80.Idx) (n : Fin 8) (t : Fin 16384) (h0 : (j 0).val = n.val * 16384 + t.val) (k : Fin 64) :
    idx_main_v0 (idx_main_v1 (lidx_main_v8 j k)) = ix3 n k t := by
  have hn : n.val < 8 := n.isLt
  have ht : t.val < 16384 := t.isLt
  have hk : k.val < 64 := k.isLt
  funext a; apply Fin.ext
  match a with
  | ⟨0, _⟩ => show ((j 0).val * 64 + k.val) / 1048576 = n.val; omega
  | ⟨1, _⟩ => show ((j 0).val * 64 + k.val) % 64 = k.val; omega
  | ⟨2, _⟩ => show ((j 0).val * 64 + k.val) / 64 % 16384 = t.val; omega

/-- The class parameters are read at `(k, c)`: by the first product, … -/
theorem par_idx6 (j : S131072x80.Idx) (c : Fin 80) (h1 : (j 1).val = c.val) (k : Fin 64) : ridx_main_v6 j k = ix2 k c := by
  funext a; apply Fin.ext
  match a with
  | ⟨0, _⟩ => rfl
  | ⟨1, _⟩ => exact h1

/-- … by the second, … -/
theorem par_idx8 (j : S131072x80.Idx) (c : Fin 80) (h1 : (j 1).val = c.val) (k : Fin 64) : ridx_main_v8 j k = ix2 k c := by
  funext a; apply Fin.ext
  match a with
  | ⟨0, _⟩ => rfl
  | ⟨1, _⟩ => exact h1

/-- … and by the centre sum, broadcast along the rows. -/
theorem par_idx4 (j : S131072x80.Idx) (c : Fin 80) (h1 : (j 1).val = c.val) (k : Fin 64) :
    idx_main_v4 (idx_main_v12 (idx_main_v13 j)) k = ix2 k c := by
  funext a; apply Fin.ext
  match a with
  | ⟨0, _⟩ => rfl
  | ⟨1, _⟩ => exact h1

/-- The reference's last stage, as a function of the three argument arrays, is the membership array. -/
theorem val_eq (x0 : Feat.Idx → EReal) (x1 x2 : Par.Idx → EReal) :
    val_main_v20 (F := Ideal) x0 x1 x2 = membership x0 x1 x2 := by
  funext i
  obtain ⟨n, c, t, rfl⟩ : ∃ (n : Fin 8) (c : Fin 80) (t : Fin 16384), i = ix3 n c t := ⟨i 0, i 1, i 2, eq_ix3 i⟩
  rw [membership_ix3]
  rw [val_main_v20_apply, val_main_v19_apply, val_main_v18_apply, val_main_v16_apply, val_main_v15_apply,
    val_main_v14_apply, val_main_v11_apply, val_main_v6_apply, val_main_v10_apply, val_main_v9_apply,
    val_main_cst_0_apply, val_main_v8_apply, val_main_v13_apply, val_main_v12_apply, val_main_v4_apply,
    val_main_cst_apply, val_main_v17_apply, val_main_cst_1_apply]
  simp only [val_main_v5_apply, val_main_v1_apply, val_main_v0_apply, val_main_v7_apply, val_main_v3_apply,
    val_main_v2_apply,
    pixel_idx6 _ n t (row_val n c t), pixel_idx8 _ n t (row_val n c t),
    par_idx6 _ c (col_val n c t), par_idx8 _ c (col_val n c t), par_idx4 _ c (col_val n c t),
    Ideal.ofBits_def, Ideal.addf_def, Ideal.subf_def, Ideal.mulf_def, Ideal.maximumf_def, Ideal.hostUnary_exp_def,
    Ideal.hostNegf_def, Ideal.negf_def]
  exact cell_of_swapped (fun k => x0 (ix3 n k t)) (fun k => x2 (ix2 k c)) (fun k => x1 (ix2 k c))

end Cert.ReferenceIdeal.RefValue

end
-- ==== Proof.Payload.lean ====
/-
  The kernel body's stored value, read at one element of the output block.

  At a grid point the body holds one image's features `X : [1, 64, 16384]` and the two parameter arrays
  `C, L : [64, 80]` (centres and weights), and stores a block `[1, 80, 16384]`. Its two matrix products contract the
  FEATURE axis, axis 0 of both operands, so at class `c` and pixel `t` each is a sum over the 64 features of a
  parameter entry at `(k, c)` times a feature entry at `(k, t)` (`dot_cols_apply`); the centre term is a sum down the
  64 rows of a `[64, 80]` array (`colsum_apply`), turned into a column and repeated along the pixels
  (`column_apply`); the leading unit axis of the feature block and of the stored block only renames indices. The rest of
  the body is pointwise. Together: the element stored at `(·, c, t)` is `Membership.cell` of pixel `t`'s feature column
  and class `c`'s parameter columns, in the arrangement that changes the sign as `0 − dist`.
-/
import proofs.«159845_j43525198577708_2_alg».proof.Proof.Gen.KernelIdeal.Skeleton
import proofs.«159845_j43525198577708_2_alg».proof.Proof.Cell
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen Cert.Membership

/-! ## The matrix product that contracts the feature axis of both operands -/

/-- The left operand is read at the contraction coordinate on its axis 0 … -/
theorem dot_lhs_feature (j : S80x16384.Idx) (q : dot_S64x80_S64x16384_S80x16384_0_0_1_1_n_n.contr.Idx) :
    (dot_S64x80_S64x16384_S80x16384_0_0_1_1_n_n.lhsIdx j q 0).val = (q ⟨0, by decide⟩).val :=
  dot_S64x80_S64x16384_S80x16384_0_0_1_1_n_n.lhsIdx_val_of_single rfl j q

/-- … and at the result's first coordinate (the class) on its axis 1. -/
theorem dot_lhs_class (j : S80x16384.Idx) (q : dot_S64x80_S64x16384_S80x16384_0_0_1_1_n_n.contr.Idx) :
    (dot_S64x80_S64x16384_S80x16384_0_0_1_1_n_n.lhsIdx j q 1).val = (j 0).val := by
  unfold DotDims.lhsIdx
  rw [dif_neg (show ¬(1 : Fin S64x80.rank) ∈ dot_S64x80_S64x16384_S80x16384_0_0_1_1_n_n.lhsBatch by decide),
    dif_pos (show (1 : Fin S64x80.rank) ∈ dot_S64x80_S64x16384_S80x16384_0_0_1_1_n_n.lhsNonContracting by decide)]
  rfl

/-- The right operand is read at the contraction coordinate on its axis 0 … -/
theorem dot_rhs_feature (j : S80x16384.Idx) (q : dot_S64x80_S64x16384_S80x16384_0_0_1_1_n_n.contr.Idx) :
    (dot_S64x80_S64x16384_S80x16384_0_0_1_1_n_n.rhsIdx j q 0).val = (q ⟨0, by decide⟩).val :=
  dot_S64x80_S64x16384_S80x16384_0_0_1_1_n_n.rhsIdx_val_of_single rfl j q

/-- … and at the result's second coordinate (the pixel) on its axis 1. -/
theorem dot_rhs_pixel (j : S80x16384.Idx) (q : dot_S64x80_S64x16384_S80x16384_0_0_1_1_n_n.contr.Idx) :
    (dot_S64x80_S64x16384_S80x16384_0_0_1_1_n_n.rhsIdx j q 1).val = (j 1).val := by
  unfold DotDims.rhsIdx
  rw [dif_neg (show ¬(1 : Fin S64x16384.rank) ∈ dot_S64x80_S64x16384_S80x16384_0_0_1_1_n_n.rhsBatch by decide),
    dif_pos (show (1 : Fin S64x16384.rank) ∈ dot_S64x80_S64x16384_S80x16384_0_0_1_1_n_n.rhsNonContracting by decide)]
  rfl

/-- Into a zero accumulator, the product at `(c, t)` is `∑ₖ A[k, c] · B[k, t]`. -/
theorem dot_cols_apply (prec : Option ContractPrecision) (A : FVec Ideal S64x80 .f32) (B : FVec Ideal S64x16384 .f32)
    (c : Fin 80) (t : Fin 16384) :
    matmul (F := Ideal) dot_S64x80_S64x16384_S80x16384_0_0_1_1_n_n prec A B (constant (F := Ideal) S80x16384 .f32 0x00000000#32) (ix2 c t)
      = ∑ k : Fin 64, A (ix2 k c) * B (ix2 k t) := by
  refine (Ideal.matmul_constant_zero_apply dot_S64x80_S64x16384_S80x16384_0_0_1_1_n_n prec A B (ix2 c t)).trans ?_
  rw [← Equiv.sum_comp (contrEquiv1 dot_S64x80_S64x16384_S80x16384_0_0_1_1_n_n 64 rfl rfl).symm]
  refine Finset.sum_congr rfl fun k _ => ?_
  have hk := contrEquiv1_symm_val dot_S64x80_S64x16384_S80x16384_0_0_1_1_n_n 64 rfl rfl k
  have el : dot_S64x80_S64x16384_S80x16384_0_0_1_1_n_n.lhsIdx (ix2 c t) ((contrEquiv1 dot_S64x80_S64x16384_S80x16384_0_0_1_1_n_n 64 rfl rfl).symm k) = ix2 k c :=
    funext fun a => Fin.ext (by
      match a with
      | ⟨0, _⟩ => exact (dot_lhs_feature _ _).trans hk
      | ⟨1, _⟩ => exact dot_lhs_class _ _)
  have er : dot_S64x80_S64x16384_S80x16384_0_0_1_1_n_n.rhsIdx (ix2 c t) ((contrEquiv1 dot_S64x80_S64x16384_S80x16384_0_0_1_1_n_n 64 rfl rfl).symm k) = ix2 k t :=
    funext fun a => Fin.ext (by
      match a with
      | ⟨0, _⟩ => exact (dot_rhs_feature _ _).trans hk
      | ⟨1, _⟩ => exact dot_rhs_pixel _ _)
  rw [el, er]

/-! ## The sum down the rows, and the column it is broadcast from -/

/-- The sum over axis 0 of a `[64, 80]` array, at class `c`, is `∑ₖ v[k, c]`. -/
theorem colsum_apply (v : FVec Ideal S64x80 .f32) (h : S64x80.Reduces [0] S80) (hφ : FKind.Formats .f32)
    (hacc : (0x00000000#32 : BitVec 32) = FKind.add.neutral .f32 hφ) (c : Fin 80) :
    multiReduction (F := Ideal) .add [0] S80 v 0x00000000#32 h hφ hacc (ix1 c) = ∑ k : Fin 64, v (ix2 k c) := by
  refine (Ideal.multiReduction_add_single v 0x00000000#32 h hφ hacc (ix1 c)).trans ?_
  refine Finset.sum_congr rfl fun k _ => congrArg v ?_
  funext a; apply Fin.ext
  match a with
  | ⟨0, _⟩ => rfl
  | ⟨1, _⟩ => rfl

/-- A vector of 80 viewed as a column `[80, 1]` and repeated along 16384 pixels reads, at `(c, t)`, entry `c`. -/
theorem column_apply (v : FVec Ideal S80 .f32) (h1 : S80.ShapeCasts S80x1) (h2 : S80x1.Broadcasts S80x16384)
    (c : Fin 80) (t : Fin 16384) :
    broadcastTo S80x16384 (shapeCast S80x1 v h1) h2 (ix2 c t) = v (ix1 c) := by
  refine (broadcastTo_apply _ h2 (ix2 c t) (ix2 c (0 : Fin 1)) fun a => ?_).trans ?_
  · match a with
    | ⟨0, _⟩ => show c.val = if (80 : Nat) = 1 then 0 else c.val; rw [if_neg (by decide)]
    | ⟨1, _⟩ => show 0 = if (1 : Nat) = 1 then 0 else t.val; rw [if_pos rfl]
  · refine shapeCast_apply v h1 _ (ix1 c) ?_
    rw [Shape.rowMajor_val_one, Shape.rowMajor_val_two]
    show c.val = c.val * 1 + 0
    omega

/-! ## The stored value at an element -/

/-- The element the body stores at `(u, c, t)` of its block is the membership of pixel `t` (feature column
    `X[0, ·, t]`) in class `c` (weights `L[·, c]`, centre `C[·, c]`). -/
theorem pay_apply (X : Vec Ideal S1x64x16384 .f32) (C L : Vec Ideal S64x80 .f32) (u : Fin 1) (c : Fin 80) (t : Fin 16384) :
    k0_pay1 (F := Ideal) X C L (ix3 u c t)
      = cell (fun k => X (ix3 (0 : Fin 1) k t)) (fun k => L (ix2 k c)) (fun k => C (ix2 k c)) := by
  unfold k0_pay1
  refine (shapeCast_ab_1ab_apply _ _ u c t).trans ?_
  refine Eq.trans ?_ (cell_of_zero_sub _ _ _)
  refine congrArg₂ max (congrArg Ideal.exp (congrArg₂ (· - ·) rfl (congrArg₂ (· + ·)
    (congrArg₂ (· - ·) ?_ (congrArg₂ (· * ·) rfl ?_)) ?_))) rfl
  · refine (dot_cols_apply _ L _ c t).trans (Finset.sum_congr rfl fun k _ => ?_)
    exact congrArg₂ (· * ·) rfl
      (congrArg₂ (· * ·) (shapeCast_1ab_ab_apply X _ k t) (shapeCast_1ab_ab_apply X _ k t))
  · refine (dot_cols_apply _ (mulf L C) _ c t).trans (Finset.sum_congr rfl fun k _ => ?_)
    exact congrArg₂ (· * ·) rfl (shapeCast_1ab_ab_apply X _ k t)
  · exact (column_apply _ _ _ c t).trans (colsum_apply _ _ _ _ c)

end Cert.KernelIdeal.Payload

end
-- ==== Proof.KernelValue.lean ====
/-
  From the blocks to the whole membership array.

  The grid has one point per image. At point `t` the features' window holds image `t` — block `(t, 0, 0)` of blocks of
  size `[1, 64, 16384]` —, the two parameter windows hold the whole `[64, 80]` arrays, and the output window writes
  block `(t, 0, 0)` of size `[1, 80, 16384]` (`idx_facts`, decided over the eight points). So an element of a block sits
  in its array at block index × block size + its coordinate inside the block, which here is: image `t`, the other
  coordinates unchanged. With the body's stored value read at an element (`Payload.pay_apply`) this says point `t` writes
  back block `t` of `Membership.membership` of the three arrays (`flushed_eq`). Every index `(n, c, p)` of the output
  lies in point `n`'s block (`cover`), hence the output array ends as the membership array (`final`), and the kernel's
  run is re-posted with that array named (`run`).
-/
import proofs.«159845_j43525198577708_2_alg».proof.Proof.Gen.KernelIdeal.Value
import proofs.«159845_j43525198577708_2_alg».proof.Proof.Payload

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.Membership

/-! ## One block, over plain variables -/

/-- If `X` is image `n` of `x` and `C`, `L` are `cc`, `lam`, the value the body stores at `y` is the membership array at the
    index with image `n` and `y`'s class and pixel. -/
theorem pay_block (x : Feat.Idx → EReal) (cc lam : Par.Idx → EReal) (n : Fin 8)
    (X : Vec Ideal S1x64x16384 .f32) (C L : Vec Ideal S64x80 .f32)
    (hX : ∀ (k : Fin 64) (p : Fin 16384), X (ix3 (0 : Fin 1) k p) = x (ix3 n k p))
    (hC : ∀ (k : Fin 64) (c : Fin 80), C (ix2 k c) = cc (ix2 k c))
    (hL : ∀ (k : Fin 64) (c : Fin 80), L (ix2 k c) = lam (ix2 k c))
    (y : S1x80x16384.Idx) (i : Memb.Idx)
    (h0 : (i 0).val = n.val) (h1 : (i 1).val = (y 1).val) (h2 : (i 2).val = (y 2).val) :
    k0_pay1 (F := Ideal) X C L y = membership x cc lam i := by
  obtain ⟨u, c, p, rfl⟩ : ∃ (u : Fin 1) (c : Fin 80) (p : Fin 16384), y = ix3 u c p := ⟨y 0, y 1, y 2, eq_ix3 y⟩
  obtain ⟨n', c', p', rfl⟩ : ∃ (n' : Fin 8) (c' : Fin 80) (p' : Fin 16384), i = ix3 n' c' p' := ⟨i 0, i 1, i 2, eq_ix3 i⟩
  obtain rfl : n' = n := Fin.ext h0
  obtain rfl : c' = c := Fin.ext h1
  obtain rfl : p' = p := Fin.ext h2
  rw [Payload.pay_apply, membership_ix3]
  unfold membershipAt
  congr 1
  · exact funext fun k => hX k p'
  · exact funext fun k => hL k c'
  · exact funext fun k => hC k c'

/-! ## The windows' blocks at a point -/

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the eight grid points: the feature and output windows are at block
    `(t, 0, 0)`, the parameter windows at block `(0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The feature window's block at point `t` is image `t`. -/
theorem feat_block (c : Dev nD) (t : Fin cfg0.N) (n : Fin 8) (hn : n.val = t.val) (k : Fin 64) (p : Fin 16384) :
    (iblk m c 0 t : Vec Ideal S1x64x16384 .f32) (ix3 (0 : Fin 1) k p) = (V m c main_arg0 : Feat.Idx → EReal) (ix3 n k p) := by
  obtain ⟨e0, e1, e2, -⟩ := idx_facts t
  show V m c main_arg0 (((cfg0.win 0).blk t).view.emb (ix3 (0 : Fin 1) k p)) = V m c main_arg0 (ix3 n k p)
  refine congrArg (V m c main_arg0) (funext fun a => Fin.ext ?_)
  match a with
  | ⟨0, _⟩ => show win0_0.index t (0 : Fin 3) * 1 + 1 * 0 = n.val; omega
  | ⟨1, _⟩ => show win0_0.index t (1 : Fin 3) * 64 + 1 * k.val = k.val; omega
  | ⟨2, _⟩ => show win0_0.index t (2 : Fin 3) * 16384 + 1 * p.val = p.val; omega

/-- The centres' window's block at any point is the whole array. -/
theorem centre_block (c : Dev nD) (t : Fin cfg0.N) (k : Fin 64) (q : Fin 80) :
    (iblk m c 1 t : Vec Ideal S64x80 .f32) (ix2 k q) = (V m c main_arg1 : Par.Idx → EReal) (ix2 k q) := by
  obtain ⟨-, -, -, e0, e1, -⟩ := idx_facts t
  show V m c main_arg1 (((cfg0.win 1).blk t).view.emb (ix2 k q)) = V m c main_arg1 (ix2 k q)
  refine congrArg (V m c main_arg1) (funext fun a => Fin.ext ?_)
  match a with
  | ⟨0, _⟩ => show win0_1.index t (0 : Fin 2) * 64 + 1 * k.val = k.val; omega
  | ⟨1, _⟩ => show win0_1.index t (1 : Fin 2) * 80 + 1 * q.val = q.val; omega

/-- The weights' window's block at any point is the whole array. -/
theorem weight_block (c : Dev nD) (t : Fin cfg0.N) (k : Fin 64) (q : Fin 80) :
    (iblk m c 2 t : Vec Ideal S64x80 .f32) (ix2 k q) = (V m c main_arg2 : Par.Idx → EReal) (ix2 k q) := by
  obtain ⟨-, -, -, -, -, e0, e1, -⟩ := idx_facts t
  show V m c main_arg2 (((cfg0.win 2).blk t).view.emb (ix2 k q)) = V m c main_arg2 (ix2 k q)
  refine congrArg (V m c main_arg2) (funext fun a => Fin.ext ?_)
  match a with
  | ⟨0, _⟩ => show win0_2.index t (0 : Fin 2) * 64 + 1 * k.val = k.val; omega
  | ⟨1, _⟩ => show win0_2.index t (1 : Fin 2) * 80 + 1 * q.val = q.val; omega

/-! ## What a point writes back, the cover, the array, the run -/

/-- Point `t` writes back block `t` of the membership array of the three argument arrays as the region finds them. -/
theorem flushed_eq (c : Dev nD) (t : Fin cfg0.N) :
    (dats m 0 c).flushed 3 t = ((cfg0.win 3).blk t).view.read (Elt Ideal)
      (membership (V m c main_arg0) (V m c main_arg1) (V m c main_arg2)) := by
  have hN : grid0.N = 8 := N_0
  rw [Value.flushed3]
  unfold out0_3
  rw [View.canon_unit_zero hz3]
  simp only [View.ld_unit_zero (S := S1x64x16384) hz3, View.ld_unit_zero (S := S64x80) hz2]
  obtain ⟨-, -, -, -, -, -, -, e0, e1, e2⟩ := idx_facts t
  funext j
  show k0_pay1 (F := Ideal) (iblk m c 0 t) (iblk m c 1 t) (iblk m c 2 t) j
    = membership (V m c main_arg0) (V m c main_arg1) (V m c main_arg2) (((cfg0.win 3).blk t).view.emb j)
  refine pay_block (V m c main_arg0) (V m c main_arg1) (V m c main_arg2) ⟨t.val, hN ▸ t.isLt⟩ _ _ _
    (feat_block m c t ⟨t.val, hN ▸ t.isLt⟩ rfl) (centre_block m c t) (weight_block m c t) j _ ?_ ?_ ?_
  · show win0_3.index t (0 : Fin 3) * 1 + 1 * (j 0).val = t.val
    have hj : (j 0).val < 1 := (j 0).isLt
    omega
  · show win0_3.index t (1 : Fin 3) * 80 + 1 * (j 1).val = (j 1).val
    omega
  · show win0_3.index t (2 : Fin 3) * 16384 + 1 * (j 2).val = (j 2).val
    omega

/-- An index of the output is in point `t`'s block iff each coordinate is in the block's range on its axis. -/
theorem mem_blk (t : Fin cfg0.N) (i : S8x80x16384.Idx) :
    i ∈ ((cfg0.win 3).blk t).view.set ↔ ∀ a : Fin 3, win0_3.index t a * S1x80x16384.size a ≤ (i a).val
      ∧ (i a).val < win0_3.index t a * S1x80x16384.size a + S1x80x16384.size a := by
  show i ∈ ((View.whole main_v0).slice (win0_3.rect t)).set ↔ _
  rw [View.set_slice_whole, Rect.mem_set_unit]
  exact Iff.rfl

/-- Every index `(n, c, p)` of the output lies in the block of point `n`, and every point writes back. -/
theorem cover (i : S8x80x16384.Idx) :
    ∃ t : Fin cfg0.N, (cfg0.win 3).flush t = true ∧ i ∈ ((cfg0.win 3).blk t).view.set := by
  have h0 : (i 0).val < 8 := (i 0).isLt
  have h1 : (i 1).val < 80 := (i 1).isLt
  have h2 : (i 2).val < 16384 := (i 2).isLt
  have hlt : (i 0).val < cfg0.N := by rw [show cfg0.N = 8 from N_0]; exact h0
  refine ⟨⟨(i 0).val, hlt⟩, flush0_3 _, ?_⟩
  obtain ⟨-, -, -, -, -, -, -, e0, e1, e2⟩ := idx_facts ⟨(i 0).val, hlt⟩
  rw [mem_blk]
  intro a
  match a with
  | ⟨0, _⟩ =>
    show win0_3.index ⟨(i 0).val, _⟩ (0 : Fin 3) * 1 ≤ (i 0).val ∧ (i 0).val < win0_3.index ⟨(i 0).val, _⟩ (0 : Fin 3) * 1 + 1
    have e0' : win0_3.index ⟨(i 0).val, hlt⟩ (0 : Fin 3) = (i 0).val := e0
    omega
  | ⟨1, _⟩ =>
    show win0_3.index ⟨(i 0).val, _⟩ (1 : Fin 3) * 80 ≤ (i 1).val ∧ (i 1).val < win0_3.index ⟨(i 0).val, _⟩ (1 : Fin 3) * 80 + 80
    omega
  | ⟨2, _⟩ =>
    show win0_3.index ⟨(i 0).val, _⟩ (2 : Fin 3) * 16384 ≤ (i 2).val ∧ (i 2).val < win0_3.index ⟨(i 0).val, _⟩ (2 : Fin 3) * 16384 + 16384
    omega

/-- The output array after the run is the membership array of the arguments as launched. -/
theorem final (c : Dev nD) :
    (dats m 0 c).arrAt 3 cfg0.N = membership (m ((c : Thread nD τ).loc main_arg0)) (m ((c : Thread nD τ).loc main_arg1))
      (m ((c : Thread nD τ).loc main_arg2)) :=
  (dats m 0 c).arrAt_eq_of_cover 3 _ (fun t _ => flushed_eq m c t) cover

/-- The kernel's run with its result named: the membership array of the arguments, which end unchanged. -/
theorem run : θ_run defs (onTc (τ := τ) (main (F := Ideal))) ⟨m, fun _ => 0, ρ⟩ fun r => ∀ c : Dev nD,
      r.2.mem ((c : Thread nD τ).loc main_v0) = membership (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.lean ====
/-
  A fuzzy-membership layer: for each of 8 images, each of 16384 pixels with a 64-feature column `x[n, ·, t]`, and each of
  80 classes with a centre column `c[·, k]` and a weight column `λ[·, k]`, the weighted squared distance in expanded form
      dist = (∑_d λ·x²  −  2·∑_d (λ·c)·x)  +  ∑_d (λ·c)·c
  and the membership `max (exp (−dist)) ε`, `ε` the single-precision word nearest `10⁻⁶`.

  One program computes it image by image: a grid of eight points, each holding one image's `[64, 16384]` features and the
  two `[64, 80]` parameter arrays, taking the two sums over the features as matrix products that contract the feature axis
  of both operands, and writing one `[80, 16384]` block. The other flattens the features to `[131072, 64]` (one row per
  image and pixel), takes the same two sums as ordinary matrix products against `[64, 80]`, and lays the `[131072, 80]`
  result back out as `[8, 80, 16384]`. Over the extended reals the two agree at every index: they differ only in the order
  of the two factors inside each product of a sum (the product commutes), in starting one sum from a zero word
  (`0 + a = a`), and in writing the sign change as `0 − a` rather than `−a`. None of these needs the inputs to be finite,
  so the precondition is not opened. The two float literals, `2` and `ε`, are the same words in both programs and are never
  evaluated.

  The modules: `Cell` — the value at one index as a function of three columns, the output array `membership`, and the
  two arrangements; `RefValue` — the flattened program's result is `membership`; `Payload` — the value the grid program
  stores at one element of a block; `KernelValue` — point `t` writes block `t` of `membership`, the blocks cover the
  array, the run. Here: each program runs and leaves its arguments unchanged (the grid program by its generated run, the
  flattened one by its generated run with the result dropped); the idealization rewrote nothing, so there is nothing to
  preserve; and both runs end at `membership` of arguments that agree.
-/
import proofs.«159845_j43525198577708_2_alg».proof.Defs
import proofs.«159845_j43525198577708_2_alg».proof.Proof.Gen.Kernel
import proofs.«159845_j43525198577708_2_alg».proof.Proof.Gen.Kernel.Skeleton
import proofs.«159845_j43525198577708_2_alg».proof.Proof.Gen.Kernel.Launch
import proofs.«159845_j43525198577708_2_alg».proof.Proof.Gen.Kernel.Points
import proofs.«159845_j43525198577708_2_alg».proof.Proof.Gen.Kernel.Frame
import proofs.«159845_j43525198577708_2_alg».proof.Proof.Gen.KernelIdeal
import proofs.«159845_j43525198577708_2_alg».proof.Proof.Gen.KernelIdeal.Skeleton
import proofs.«159845_j43525198577708_2_alg».proof.Proof.Gen.KernelIdeal.Launch
import proofs.«159845_j43525198577708_2_alg».proof.Proof.Gen.KernelIdeal.Points
import proofs.«159845_j43525198577708_2_alg».proof.Proof.Gen.KernelIdeal.Frame
import proofs.«159845_j43525198577708_2_alg».proof.Proof.Gen.ReferenceIdeal
import proofs.«159845_j43525198577708_2_alg».proof.Proof.Gen.Pre_finite_inputs
import proofs.«159845_j43525198577708_2_alg».proof.Proof.Gen.KernelIdeal.Value
import proofs.«159845_j43525198577708_2_alg».proof.Proof.Gen.ReferenceIdeal.Run
import proofs.«159845_j43525198577708_2_alg».proof.Proof.Gen.ReferenceIdeal.Read
import proofs.«159845_j43525198577708_2_alg».proof.Proof.Cell
import proofs.«159845_j43525198577708_2_alg».proof.Proof.RefValue
import proofs.«159845_j43525198577708_2_alg».proof.Proof.Payload
import proofs.«159845_j43525198577708_2_alg».proof.Proof.KernelValue
import Idealize.ShloMosaic.Adequacy
import Idealize.ShloMosaic.Init

noncomputable section

namespace Cert.Proof

open Idealize.ShloMosaic Idealize.ShloMosaic.TcCoe Idealize.SL.Sem Cert.Membership

/-- The grid program as printed runs and leaves its three arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The flattened program runs and leaves its arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten in passing to the extended reals. -/
theorem preserves : Cert.preserves_Kernel_KernelIdeal := trivial

/-- From arguments that agree, both programs end with the membership array of those arguments. -/
theorem algebraic : Cert.algebraic_KernelIdeal_ReferenceIdeal := by
  intro m ρ m' ρ' _ hagree
  refine ⟨fun c => membership (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.val_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
